-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S512x256 .f32) (main_arg3 : FVec F S256 .f32) (main_arg4 : FVec F S256x64 .f32) (main_arg5 : FVec F S64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S4096x256 : Shape := ⟨2, ![4096, 256]⟩
abbrev S4096x64 : Shape := ⟨2, ![4096, 64]⟩
abbrev S1024x2048 : Shape := ⟨2, ![1024, 2048]⟩
abbrev S1024x256 : Shape := ⟨2, ![1024, 256]⟩
abbrev S1024x64 : Shape := ⟨2, ![1024, 64]⟩
abbrev S2048x256 : Shape := ⟨2, ![2048, 256]⟩

abbrev nBuf : Space → Nat
  | .hbm => 10
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x256, .f32⟩
  | .hbm, ⟨7, _⟩ => ⟨S1x64, .f32⟩
  | .hbm, ⟨8, _⟩ => ⟨S4096x256, .f32⟩
  | .hbm, ⟨9, _⟩ => ⟨S4096x64, .f32⟩
  | .local _ .vmem, ⟨0, _⟩ => ⟨S4096x512, .f32⟩
  | .local _ .vmem, ⟨1, _⟩ => ⟨S1024x2048, .f32⟩
  | .local _ .vmem, ⟨2, _⟩ => ⟨S1024x2048, .f32⟩
  | .local _ .vmem, ⟨3, _⟩ => ⟨S512x256, .f32⟩
  | .local _ .vmem, ⟨4, _⟩ => ⟨S1x256, .f32⟩
  | .local _ .vmem, ⟨5, _⟩ => ⟨S256x64, .f32⟩
  | .local _ .vmem, ⟨6, _⟩ => ⟨S1x64, .f32⟩
  | .local _ .vmem, ⟨7, _⟩ => ⟨S1024x256, .f32⟩
  | .local _ .vmem, ⟨8, _⟩ => ⟨S1024x256, .f32⟩
  | .local _ .vmem, ⟨9, _⟩ => ⟨S1024x64, .f32⟩
  | .local _ .vmem, ⟨10, _⟩ => ⟨S1024x64, .f32⟩
  | .local _ .vmem, ⟨11, _⟩ => ⟨S4096x256, .bf16⟩
  | .local _ .vmem, ⟨12, _⟩ => ⟨S1024x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S256_S1x256 : S256.ShapeCasts S1x256
  shapeCasts_S64_S1x64 : S64.ShapeCasts S1x64
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1024x2048_S1024x2048_0_0 : ∀ a, (![0, 0] : Fin 2 → Nat) a + S1024x2048.size a ≤ S1024x2048.size a
  h_S1024x2048 : 0 < S1024x2048.numel
  inb_S4096x256_S2048x256_0_0 : ∀ a, (![0, 0] : Fin 2 → Nat) a + S2048x256.size a ≤ S4096x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096x256_S2048x256_2048_0 : ∀ a, (![2048, 0] : Fin 2 → Nat) a + S2048x256.size a ≤ S4096x256.size a
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S4096x512_S512x256_S4096x256_1_0_0_1_n_n_wf : DotDims.WF S4096x512 S512x256 S4096x256 [1] [0] [0] [1] [] []
  dot_S1024x2048_S2048x256_S1024x256_1_0_0_1_n_n_wf : DotDims.WF S1024x2048 S2048x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .f32 = 32 ∨ (Rect.block (s := S4096x4096) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x256.size a
  hwx0_6 : ∀ i : grid0.Coords, EltTy.bits .f32 = 32 ∨ (Rect.block (s := S4096x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S4096x64.size a
  hwx0_7 : ∀ i : grid0.Coords, EltTy.bits .f32 = 32 ∨ (Rect.block (s := S4096x64) S1024x64.size (cc0_transform_7 i) (hinb0_7 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond3 i == 1#1) | ⟨_ + 8, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x64 : Shape := ⟨2, ![256, 64]⟩
abbrev S64 : Shape := ⟨1, ![64]⟩
abbrev S4096x256 : Shape := ⟨2, ![4096, 256]⟩
abbrev S1x256 : Shape := ⟨2, ![1, 256]⟩
abbrev S_ : Shape := ⟨0, ![]⟩
abbrev S4096x64 : Shape := ⟨2, ![4096, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S4096x256, .f32⟩
  | .hbm, ⟨7, _⟩ => ⟨S1x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S4096x64, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S_, .f32⟩
  | .hbm, ⟨24, _⟩ => ⟨S4096x64, .f32⟩
  | .hbm, ⟨25, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x64_S4096x64_1_0_0_1_n_n_wf : DotDims.WF S4096x256 S256x64 S4096x64 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

class Facts : Prop extends Facts₀ where

variable [Facts]
-- ==== Proof.Pieces.lean ====
/-
  What one run of the kernel body leaves behind, case by case, as the body's stored values of what it loaded.

  The body has three cases over the grid (i, j) of 4 row blocks × 2 halves of the shared axis:
    * first point (0, 0): it stores the support x·W1 + b1 into the first scratch, then the product of its adjacency
      block with the support's rows 0 … 2047 (read back from what it has just stored) into the second scratch;
    * a later point with j = 0: the same half product, the support read from the first scratch as it was left;
    * a point with j = 1: the carried half product plus the product with the support's rows 2048 … 4095, rectified,
      into the feature block, and the logistic output block computed from it.
  Every store covers its buffer whole, so each buffer reads back as the one stored value; every load is of a whole
  buffer, or of the upper or lower 2048 rows of the first scratch.
-/
import proofs.«143571_g39943195853166_cont_8to1_b_452_22_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]
variable (c : Dev nD) (i : grid0.Coords) (arg2 : Memref sig .tc .vmem S4096x512 .f32) (harg2 : arg2.IsWhole) (arg3 : Memref sig .tc .vmem S1024x2048 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S1024x256 .f32) (harg8 : arg8.IsWhole) (arg9 : Memref sig .tc .vmem S1024x64 .f32) (harg9 : arg9.IsWhole) (arg10 : Memref sig .tc .vmem S4096x256 .bf16) (harg10 : arg10.IsWhole) (arg11 : Memref sig .tc .vmem S1024x256 .f32) (harg11 : arg11.IsWhole)
variable (x0 : Vec F S4096x512 .f32) (x1 : Vec F S1024x2048 .f32) (x2 : Vec F S512x256 .f32) (x3 : Vec F S1x256 .f32) (x4 : Vec F S256x64 .f32) (x5 : Vec F S1x64 .f32)

theorem hz : (![0, 0] : Fin 2 → Nat) = fun _ => 0 := funext fun a => by fin_cases a <;> rfl

/-- Rows 0 … 2047 of a [4096, 256] array. -/
abbrev lowerRows (S : Vec F S4096x256 .bf16) : Vec F S2048x256 .bf16 :=
  View.ld S (Rect.unit (s := S4096x256) ![0, 0] S2048x256.size inb_S4096x256_S2048x256_0_0)

/-- Rows 2048 … 4095 of a [4096, 256] array. -/
abbrev upperRows (S : Vec F S4096x256 .bf16) : Vec F S2048x256 .bf16 :=
  View.ld S (Rect.unit (s := S4096x256) ![2048, 0] S2048x256.size inb_S4096x256_S2048x256_2048_0)

/-- At the first point the first scratch ends holding the support store of the three blocks loaded. -/
theorem first_support (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 hc0 hc1 hc2 x0 x1 x2 x3 x4 x5 = k0_pay1 x0 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5)]
  unfold kernelRun0_A
  dsimp only
  sl_unfold_words
  rw [View.canon_unit_zero hz]
  simp only [View.readAt_eq_ld, harg2.read_unread, harg4.read_unread, harg5.read_unread,
    View.ld_unit_zero (S := S4096x512) hz, View.ld_unit_zero (S := S512x256) hz, View.ld_unit_zero (S := S1x256) hz]

/-- At the first point the second scratch ends holding the half product of the adjacency block with the lower rows
    of the support just stored. -/
theorem first_half (hc0 : cond0_0 i) (hc1 : cond0_1 i) (hc2 : ¬cond0_2 i) :
    sout0_A_1 c i arg2 harg2 arg3 harg3 arg4 harg4 arg5 harg5 arg6 harg6 arg7 harg7 arg8 harg8 arg9 harg9 arg10 harg10 arg11 harg11 hc0 hc1 hc2 x0 x1 x2 x3 x4 x5 = k0_pay2 x1 (lowerRows (k0_pay1 x0 x2 x3)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 hc2 x0 x1 x2 x3 x4 x5)]
  unfold kernelRun0_A
  dsimp only
  sl_unfold_words
  rw [View.canon_unit_zero hz]
  simp only [View.readAt_eq_ld, harg2.read_unread, harg3.read_unread, harg4.read_unread, harg5.read_unread,
    View.ld_unit_zero (S := S4096x512) hz, View.ld_unit_zero (S := S512x256) hz, View.ld_unit_zero (S := S1x256) hz,
    View.ld_unit_zero (S := S1024x2048) hz, View.readCov_eq_canon', View.canon_unit_zero (S := S4096x256) hz]
  rfl

/-- At a later point with j = 0 the second scratch ends holding the half product with the lower rows of the carried
    support. -/
theorem later_half (hc0 : ¬cond0_0 i) (hc1 : cond0_1 i) (hc2 : ¬cond0_2 i) (xs0 : Vec F S4096x256 .bf16) :
    sout0_C_1 c i arg2 harg2 arg3 harg3 arg4 harg4 arg5 harg5 arg6 harg6 arg7 harg7 arg8 harg8 arg9 harg9 arg10 harg10 arg11 harg11 hc0 hc1 hc2 x0 x1 x2 x3 x4 x5 xs0 = k0_pay2 x1 (lowerRows xs0) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 hc2 x0 x1 x2 x3 x4 x5 xs0)]
  unfold kernelRun0_C
  dsimp only
  sl_unfold_words
  rw [View.canon_unit_zero hz]
  simp only [View.readAt_eq_ld, harg3.read_unread, harg10.read_unread, View.ld_unit_zero (S := S1024x2048) hz]

/-- At a point with j = 1 the feature block is the feature store of the carried half product, the adjacency block
    and the upper rows of the carried support. -/
theorem feature_block (hc0 : ¬cond0_0 i) (hc1 : ¬cond0_1 i) (hc2 : cond0_2 i) (xs0 : Vec F S4096x256 .bf16)
    (xs1 : Vec F S1024x256 .f32) :
    out0_B_6 c i arg2 harg2 arg3 harg3 arg4 harg4 arg5 harg5 arg6 harg6 arg7 harg7 arg8 harg8 arg9 harg9 arg10 harg10 arg11 harg11 hc0 hc1 hc2 x0 x1 x2 x3 x4 x5 xs0 xs1 = k0_pay3 xs1 x1 (upperRows xs0) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 hc1 hc2 x0 x1 x2 x3 x4 x5 xs0 xs1)]
  unfold kernelRun0_B
  dsimp only
  sl_unfold_words
  rw [View.canon_unit_zero hz]
  simp only [View.readAt_eq_ld, harg3.read_unread, harg10.read_unread, harg11.read_unread,
    View.ld_unit_zero (S := S1024x2048) hz, View.ld_unit_zero (S := S1024x256) hz]

/-- At a point with j = 1 the output block is the output store of the same three and the second layer's weights. -/
theorem output_block (hc0 : ¬cond0_0 i) (hc1 : ¬cond0_1 i) (hc2 : cond0_2 i) (xs0 : Vec F S4096x256 .bf16)
    (xs1 : Vec F S1024x256 .f32) :
    out0_B_7 c i arg2 harg2 arg3 harg3 arg4 harg4 arg5 harg5 arg6 harg6 arg7 harg7 arg8 harg8 arg9 harg9 arg10 harg10 arg11 harg11 hc0 hc1 hc2 x0 x1 x2 x3 x4 x5 xs0 xs1 = k0_pay4 xs1 x1 (upperRows xs0) x4 x5 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 hc2 x0 x1 x2 x3 x4 x5 xs0 xs1)]
  unfold kernelRun0_B
  dsimp only
  sl_unfold_words
  rw [View.canon_unit_zero hz]
  simp only [View.readAt_eq_ld, harg3.read_unread, harg6.read_unread, harg7.read_unread, harg10.read_unread,
    harg11.read_unread, View.ld_unit_zero (S := S1024x2048) hz, View.ld_unit_zero (S := S1024x256) hz,
    View.ld_unit_zero (S := S256x64) hz, View.ld_unit_zero (S := S1x64) hz]

end Cert.KernelIdeal.Pieces

end
-- ==== Proof.Blocks.lean ====
/-
  What the body's input blocks are, as pieces of the arrays the region finds.

  Five of the six inputs are staged whole (their block index is (0, 0) at every grid point), so their block is the
  array itself. The adjacency is staged in blocks of 1024 rows × 2048 columns: at the point numbered t = 2·i + j the
  block's entry (r, u) is the array's entry (1024·i + r, 2048·j + u). The two bias operands are the bias vectors
  re-laid by the host as one row: entry (0, c) of the row is entry c of the vector.
-/
import proofs.«143571_g39943195853166_cont_8to1_b_452_22_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ)

/-- The block indices, decided once over the eight grid points: the whole-array windows stay at (0, 0), the adjacency
    window is at (t / 2, t % 2). -/
theorem index_facts : ∀ t : Fin cfg0.N,
    win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_1.index t (0 : Fin 2) = t.val / 2 ∧ win0_1.index t (1 : Fin 2) = t.val % 2 :=
  (by decide +kernel : ∀ t : Fin grid0.N, _)

/-- The block of x is x. -/
theorem x_whole (c : Dev nD) (t : Fin cfg0.N) :
    (iblk m c 0 t : Vec F S4096x512 .f32) = (V m c main_arg0 : Vec F S4096x512 .f32) := by
  obtain ⟨e0, e1, -⟩ := index_facts t
  funext j
  unfold iblk
  rw [View.read_apply]
  show V m c main_arg0 _ = V m c main_arg0 j
  refine congrArg (V m c main_arg0) (funext fun a => Fin.ext ?_)
  match a with
  | ⟨0, _⟩ => show win0_0.index t (0 : Fin 2) * 4096 + 1 * (j 0).val = (j 0).val; omega
  | ⟨1, _⟩ => show win0_0.index t (1 : Fin 2) * 512 + 1 * (j 1).val = (j 1).val; omega

/-- The block of W1 is W1. -/
theorem w1_whole (c : Dev nD) (t : Fin cfg0.N) :
    (iblk m c 2 t : Vec F S512x256 .f32) = (V m c main_arg2 : Vec F S512x256 .f32) := by
  obtain ⟨-, -, e0, e1, -⟩ := index_facts t
  funext j
  unfold iblk
  rw [View.read_apply]
  show V m c main_arg2 _ = V m c main_arg2 j
  refine congrArg (V m c main_arg2) (funext fun a => Fin.ext ?_)
  match a with
  | ⟨0, _⟩ => show win0_2.index t (0 : Fin 2) * 512 + 1 * (j 0).val = (j 0).val; omega
  | ⟨1, _⟩ => show win0_2.index t (1 : Fin 2) * 256 + 1 * (j 1).val = (j 1).val; omega

/-- The block of the first bias row is that row. -/
theorem b1_whole (c : Dev nD) (t : Fin cfg0.N) :
    (iblk m c 3 t : Vec F S1x256 .f32) = (V m c main_call0_v0 : Vec F S1x256 .f32) := by
  obtain ⟨-, -, -, -, e0, e1, -⟩ := index_facts t
  funext j
  unfold iblk
  rw [View.read_apply]
  show V m c main_call0_v0 _ = V m c main_call0_v0 j
  refine congrArg (V m c main_call0_v0) (funext fun a => Fin.ext ?_)
  match a with
  | ⟨0, _⟩ => show win0_3.index t (0 : Fin 2) * 1 + 1 * (j 0).val = (j 0).val; omega
  | ⟨1, _⟩ => show win0_3.index t (1 : Fin 2) * 256 + 1 * (j 1).val = (j 1).val; omega

/-- The block of W2 is W2. -/
theorem w2_whole (c : Dev nD) (t : Fin cfg0.N) :
    (iblk m c 4 t : Vec F S256x64 .f32) = (V m c main_arg4 : Vec F S256x64 .f32) := by
  obtain ⟨-, -, -, -, -, -, e0, e1, -⟩ := index_facts t
  funext j
  unfold iblk
  rw [View.read_apply]
  show V m c main_arg4 _ = V m c main_arg4 j
  refine congrArg (V m c main_arg4) (funext fun a => Fin.ext ?_)
  match a with
  | ⟨0, _⟩ => show win0_4.index t (0 : Fin 2) * 256 + 1 * (j 0).val = (j 0).val; omega
  | ⟨1, _⟩ => show win0_4.index t (1 : Fin 2) * 64 + 1 * (j 1).val = (j 1).val; omega

/-- The block of the second bias row is that row. -/
theorem b2_whole (c : Dev nD) (t : Fin cfg0.N) :
    (iblk m c 5 t : Vec F S1x64 .f32) = (V m c main_call0_v1 : Vec F S1x64 .f32) := by
  obtain ⟨-, -, -, -, -, -, -, -, e0, e1, -⟩ := index_facts t
  funext j
  unfold iblk
  rw [View.read_apply]
  show V m c main_call0_v1 _ = V m c main_call0_v1 j
  refine congrArg (V m c main_call0_v1) (funext fun a => Fin.ext ?_)
  match a with
  | ⟨0, _⟩ => show win0_5.index t (0 : Fin 2) * 1 + 1 * (j 0).val = (j 0).val; omega
  | ⟨1, _⟩ => show win0_5.index t (1 : Fin 2) * 64 + 1 * (j 1).val = (j 1).val; omega

/-- The adjacency block at point t: rows from 1024·(t / 2), columns from 2048·(t % 2). -/
theorem adj_block (c : Dev nD) (t : Fin cfg0.N) (r : Fin 1024) (u : Fin 2048) (R K : Fin 4096)
    (hR : R.val = 1024 * (t.val / 2) + r.val) (hK : K.val = 2048 * (t.val % 2) + u.val) :
    (iblk m c 1 t : Vec F S1024x2048 .f32) (ix2 r u) = (V m c main_arg1 : Vec F S4096x4096 .f32) (ix2 R K) := by
  obtain ⟨-, -, -, -, -, -, -, -, -, -, e0, e1⟩ := index_facts t
  unfold iblk
  rw [View.read_apply]
  show V m c main_arg1 _ = V m c main_arg1 (ix2 R K)
  refine congrArg (V m c main_arg1) (funext fun a => Fin.ext ?_)
  match a with
  | ⟨0, _⟩ => show win0_1.index t (0 : Fin 2) * 1024 + 1 * r.val = R.val; omega
  | ⟨1, _⟩ => show win0_1.index t (1 : Fin 2) * 2048 + 1 * u.val = K.val; omega

/-- The first bias row the region finds is b1 re-laid as [1, 256]. -/
theorem b1_row (c : Dev nD) (k : Fin 256) :
    (V m c main_call0_v0 : Vec F S1x256 .f32) (ix2 (0 : Fin 1) k) = (m ((c : Thread nD τ).loc main_arg3) : Vec F S256 .f32) (ix1 k) := by
  have e : (V m c main_call0_v0 : S1x256.Idx → Elt F .f32)
      = shapeCast S1x256 (m ((c : Thread nD τ).loc main_arg3) : Vec F S256 .f32) shapeCasts_S256_S1x256 := by
    dsimp only [Gen.V, Gen.hostOps0]; after_results; rfl
  rw [e]
  exact shapeCast_a_1a_apply _ shapeCasts_S256_S1x256 (0 : Fin 1) k

/-- The second bias row the region finds is b2 re-laid as [1, 64]. -/
theorem b2_row (c : Dev nD) (k : Fin 64) :
    (V m c main_call0_v1 : Vec F S1x64 .f32) (ix2 (0 : Fin 1) k) = (m ((c : Thread nD τ).loc main_arg5) : Vec F S64 .f32) (ix1 k) := by
  have e : (V m c main_call0_v1 : S1x64.Idx → Elt F .f32)
      = shapeCast S1x64 (m ((c : Thread nD τ).loc main_arg5) : Vec F S64 .f32) shapeCasts_S64_S1x64 := by
    dsimp only [Gen.V, Gen.hostOps0]; after_results; rfl
  rw [e]
  exact shapeCast_a_1a_apply _ shapeCasts_S64_S1x64 (0 : Fin 1) k

end Cert.KernelIdeal.Blocks

end
-- ==== Proof.Carried.lean ====
/-
  What the two scratch buffers and the two output blocks hold after each grid point, point by point.

  The first scratch is stored once, at the first point, with the support x·W1 + b1, and never again: after every point
  it holds the support (induction on the point). The second scratch, after a point with j = 0, holds the half product
  of that point's adjacency block with the support's lower rows. At a point with j = 1 the body finds both as the
  point before left them, so the feature block and the output block are the feature store and the output store of
  the half product of the point before, this point's adjacency block and the support's upper rows.
-/
import proofs.«143571_g39943195853166_cont_8to1_b_452_22_alg».proof.Proof.Pieces
import proofs.«143571_g39943195853166_cont_8to1_b_452_22_alg».proof.Proof.Blocks

noncomputable section

namespace Cert.KernelIdeal.Carried

open Cert.KernelIdeal Cert.KernelIdeal.Gen Cert.KernelIdeal.Pieces Cert.KernelIdeal.Blocks
open Idealize.ShloMosaic Idealize.ShloMosaic.TcCoe Idealize.SL.Sem

variable {F : FTy → Type} [FloatOps F]
variable (m : (ℓ : Loc nD τ sig) → Buf (Elt F) ℓ)

/-- The support as the body stores it: the support store of x, W1 and the bias row as the region finds them. -/
def support (c : Dev nD) : Vec F S4096x256 .bf16 :=
  k0_pay1 (V m c main_arg0 : Vec F S4096x512 .f32) (V m c main_arg2 : Vec F S512x256 .f32) (V m c main_call0_v0 : Vec F S1x256 .f32)

/-- The point before a point that is not the first. -/
abbrev before (t : Fin cfg0.N) : Fin cfg0.N := ⟨t.val - 1, Nat.lt_of_le_of_lt (Nat.sub_le _ _) t.isLt⟩

/-- After every point the first scratch holds the support. -/
theorem support_carried (c : Dev nD) : ∀ (n : ℕ) (hn : n < cfg0.N), (outsAt0 m c n hn).2.2.1 = support m c
  | 0, hn => by
    rw [outsAt0_A m c ⟨0, hn⟩ rfl rfl (by show ¬(0 % 2 = 1); decide)]
    dsimp only
    rw [first_support, x_whole, w1_whole, b1_whole]
    rfl
  | n + 1, hn => by
    have hN : n + 1 < 8 := lt_of_lt_of_eq hn (show cfg0.N = 8 from N_0)
    have ih := support_carried c n (Nat.lt_of_succ_lt hn)
    by_cases h1 : (n + 1) % 2 = 0
    · rw [outsAt0_C m c ⟨n + 1, hn⟩ (by dsimp only; omega) h1 (by dsimp only; omega)]
      exact ih
    · rw [outsAt0_B m c ⟨n + 1, hn⟩ (by dsimp only; omega) h1 (by dsimp only; omega)]
      exact ih

/-- After a point with j = 0 the second scratch holds the half product of its adjacency block with the support's
    lower rows. -/
theorem half_carried (c : Dev nD) (t : Fin cfg0.N) (h1 : t.val % 2 = 0) :
    (outsAt0 m c t.val t.isLt).2.2.2 = k0_pay2 (iblk m c 1 t : Vec F S1024x2048 .f32) (lowerRows (support m c)) := by
  have hN : t.val < 8 := lt_of_lt_of_eq t.isLt (show cfg0.N = 8 from N_0)
  by_cases h0 : t.val % 8 = 0
  · rw [outsAt0_A m c t h0 h1 (by omega)]
    dsimp only
    rw [first_half, x_whole, w1_whole, b1_whole]
    rfl
  · rw [outsAt0_C m c t h0 h1 (by omega)]
    dsimp only
    rw [later_half, support_carried]

/-- At a point with j = 1 the feature block is the feature store of the half product the point before left, this
    point's adjacency block and the support's upper rows. -/
theorem feature_at (c : Dev nD) (t : Fin cfg0.N) (h2 : t.val % 2 = 1) :
    (outsAt0 m c t.val t.isLt).1
      = k0_pay3 (k0_pay2 (iblk m c 1 (before t) : Vec F S1024x2048 .f32) (lowerRows (support m c)))
          (iblk m c 1 t : Vec F S1024x2048 .f32) (upperRows (support m c)) := by
  have hN : t.val < 8 := lt_of_lt_of_eq t.isLt (show cfg0.N = 8 from N_0)
  rw [outsAt0_B m c t (by omega) (by omega) h2]
  dsimp only
  rw [feature_block, support_carried, half_carried m c (before t) (by show (t.val - 1) % 2 = 0; omega)]

/-- At a point with j = 1 the output block is the output store of the same and the second layer's operands. -/
theorem output_at (c : Dev nD) (t : Fin cfg0.N) (h2 : t.val % 2 = 1) :
    (outsAt0 m c t.val t.isLt).2.1
      = k0_pay4 (k0_pay2 (iblk m c 1 (before t) : Vec F S1024x2048 .f32) (lowerRows (support m c)))
          (iblk m c 1 t : Vec F S1024x2048 .f32) (upperRows (support m c))
          (V m c main_arg4 : Vec F S256x64 .f32) (V m c main_call0_v1 : Vec F S1x64 .f32) := by
  have hN : t.val < 8 := lt_of_lt_of_eq t.isLt (show cfg0.N = 8 from N_0)
  rw [outsAt0_B m c t (by omega) (by omega) h2]
  dsimp only
  rw [output_block, support_carried, half_carried m c (before t) (by show (t.val - 1) % 2 = 0; omega), w2_whole, b2_whole]

end Cert.KernelIdeal.Carried

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.Payloads.lean ====
/-
  The kernel body's four stored values, read at an entry (r, c) on the extended reals, over any contents of the
  buffers the body loads. A change of float format is the identity there, a product accumulated into the zero
  array is the plain sum of products over the shared axis, and a [1, n] row repeated down the rows reads its one row:

    the support store            (r, c) ↦ Σ_u X (r, u) · W (u, c) + b (0, c)
    the half-product store       (r, c) ↦ Σ_u A (r, u) · S (u, c)                       (u over 2048 rows of the support)
    the feature store            (r, c) ↦ max (acc (r, c) + Σ_u A (r, u) · S (u, c), 0)
    the output store             (r, c) ↦ logistic (Σ_u feature (r, u) · W2 (u, c) + b2 (0, c))
-/
import proofs.«143571_g39943195853166_cont_8to1_b_452_22_alg».proof.Proof.Gen.KernelIdeal.Skeleton
import proofs.«143571_g39943195853166_cont_8to1_b_452_22_alg».proof.Proof.LibDenseRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The support store: X·W + b, the bias row repeated down the 4096 rows. -/
theorem support_store (X : Vec Ideal S4096x512 .f32) (W : Vec Ideal S512x256 .f32) (b : Vec Ideal S1x256 .f32)
    (r : Fin 4096) (c : Fin 256) :
    k0_pay1 (F := Ideal) X W b (ix2 r c) = (∑ u : Fin 512, X (ix2 r u) * W (ix2 u c)) + b (ix2 (0 : Fin 1) c) := by
  unfold k0_pay1
  simp only [shapeCast_self]
  refine congrArg₂ (fun a b : EReal => a + b) ?_ ?_
  · exact Cert.DenseRows.matmul_rows_apply dot_S4096x512_S512x256_S4096x256_1_0_0_1_n_n rfl rfl
      (fun _ _ => rfl) (fun _ _ => rfl) (fun _ _ => rfl) (fun _ _ => rfl) none _ _ r c
  · exact broadcastTo_1b_ab_apply b broadcasts_S1x256_S4096x256 r c

/-- The half-product store: a block of 1024 adjacency rows against 2048 rows of the support. -/
theorem half_store (A : Vec Ideal S1024x2048 .f32) (S : Vec Ideal S2048x256 .bf16) (r : Fin 1024) (c : Fin 256) :
    k0_pay2 (F := Ideal) A S (ix2 r c) = ∑ u : Fin 2048, A (ix2 r u) * S (ix2 u c) := by
  unfold k0_pay2
  simp only [shapeCast_self]
  exact Cert.DenseRows.matmul_rows_apply dot_S1024x2048_S2048x256_S1024x256_1_0_0_1_n_n rfl rfl
    (fun _ _ => rfl) (fun _ _ => rfl) (fun _ _ => rfl) (fun _ _ => rfl) none _ _ r c

/-- The feature store: the carried half product plus the other half, rectified. -/
theorem feature_store (acc : Vec Ideal S1024x256 .f32) (A : Vec Ideal S1024x2048 .f32) (S : Vec Ideal S2048x256 .bf16)
    (r : Fin 1024) (c : Fin 256) :
    k0_pay3 (F := Ideal) acc A S (ix2 r c)
      = max (acc (ix2 r c) + ∑ u : Fin 2048, A (ix2 r u) * S (ix2 u c)) (Ideal.ofBits .f32 0x00000000#32) := by
  unfold k0_pay3
  refine congrArg₂ (fun a b : EReal => max a b) (congrArg (fun z : EReal => acc (ix2 r c) + z) ?_) rfl
  exact Cert.DenseRows.matmul_rows_apply dot_S1024x2048_S2048x256_S1024x256_1_0_0_1_n_n rfl rfl
    (fun _ _ => rfl) (fun _ _ => rfl) (fun _ _ => rfl) (fun _ _ => rfl) none _ _ r c

/-- The output store: the logistic function of the features' second affine map. -/
theorem output_store (acc : Vec Ideal S1024x256 .f32) (A : Vec Ideal S1024x2048 .f32) (S : Vec Ideal S2048x256 .bf16)
    (W2 : Vec Ideal S256x64 .f32) (b2 : Vec Ideal S1x64 .f32) (r : Fin 1024) (c : Fin 64) :
    k0_pay4 (F := Ideal) acc A S W2 b2 (ix2 r c)
      = Ideal.logistic ((∑ u : Fin 256, k0_pay3 (F := Ideal) acc A S (ix2 r u) * W2 (ix2 u c)) + b2 (ix2 (0 : Fin 1) c)) := by
  unfold k0_pay4
  simp only [shapeCast_self]
  refine congrArg Ideal.logistic (congrArg₂ (fun a b : EReal => a + b) ?_ ?_)
  · exact Cert.DenseRows.matmul_rows_apply dot_S1024x256_S256x64_S1024x64_1_0_0_1_n_n rfl rfl
      (fun _ _ => rfl) (fun _ _ => rfl) (fun _ _ => rfl) (fun _ _ => rfl) none _ _ r c
  · exact broadcastTo_1b_ab_apply b2 broadcasts_S1x64_S1024x64 r c

end Cert.KernelIdeal.Payloads

end
-- ==== Proof.GcnSpec.lean ====
/-
  A two-layer graph convolution on the extended reals, entry by entry.

  With x [4096, 512], adj [4096, 4096], W1 [512, 256], b1 [256], W2 [256, 64], b2 [64]:

    support (k, c) = Σ_u x (k, u) · W1 (u, c) + b1 c
    hidden  (r, c) = Σ_k adj (r, k) · support (k, c)                 (the sum over all 4096 nodes k)
    feature (r, c) = max (hidden (r, c), 0)
    output  (r, c) = logistic (Σ_u feature (r, u) · W2 (u, c) + b2 c)

  `feature` and `output` are the two results. The zero of the maximum stays the f32 word of +0.0, which both
  programs write, so it is never evaluated.
-/
import Idealize.ShloMosaic.PureOps.Ideal
import Idealize.ShloMosaic.Lib.ValueIdx

noncomputable section

open scoped BigOperators

namespace Cert.GcnSpec

open Idealize.ShloMosaic Idealize.ShloMosaic.ValueIdx

/-- An [a, b] array of extended reals. -/
abbrev Mat (a b : ℕ) : Type := FVec Ideal ⟨2, ![a, b]⟩ .f32
/-- A length-a vector of extended reals. -/
abbrev Row (a : ℕ) : Type := FVec Ideal ⟨1, ![a]⟩ .f32

/-- The first layer's affine map at node `k`, hidden channel `c`. -/
def supportAt (x : Mat 4096 512) (w1 : Mat 512 256) (b1 : Row 256) (k : Fin 4096) (c : Fin 256) : EReal :=
  (∑ u : Fin 512, x (ix2 k u) * w1 (ix2 u c)) + b1 (ix1 c)

/-- The aggregation over all nodes: row `r` of the adjacency against column `c` of the support. -/
def hiddenAt (x : Mat 4096 512) (adj : Mat 4096 4096) (w1 : Mat 512 256) (b1 : Row 256) (r : Fin 4096) (c : Fin 256) : EReal :=
  ∑ k : Fin 4096, adj (ix2 r k) * supportAt x w1 b1 k c

/-- The first result: the rectified aggregation. -/
def featAt (x : Mat 4096 512) (adj : Mat 4096 4096) (w1 : Mat 512 256) (b1 : Row 256) (r : Fin 4096) (c : Fin 256) : EReal :=
  max (hiddenAt x adj w1 b1 r c) (Ideal.ofBits .f32 0x00000000#32)

/-- The second layer's affine map of the features. -/
def logitAt (x : Mat 4096 512) (adj : Mat 4096 4096) (w1 : Mat 512 256) (b1 : Row 256) (w2 : Mat 256 64) (b2 : Row 64)
    (r : Fin 4096) (c : Fin 64) : EReal :=
  (∑ u : Fin 256, featAt x adj w1 b1 r u * w2 (ix2 u c)) + b2 (ix1 c)

/-- The second result: the logistic function of the second layer. -/
def outAt (x : Mat 4096 512) (adj : Mat 4096 4096) (w1 : Mat 512 256) (b1 : Row 256) (w2 : Mat 256 64) (b2 : Row 64)
    (r : Fin 4096) (c : Fin 64) : EReal :=
  Ideal.logistic (logitAt x adj w1 b1 w2 b2 r c)

/-- The feature array [4096, 256]. -/
def feature (x : Mat 4096 512) (adj : Mat 4096 4096) (w1 : Mat 512 256) (b1 : Row 256) : Mat 4096 256 :=
  fun j => featAt x adj w1 b1 (j 0) (j 1)

/-- The output array [4096, 64]. -/
def output (x : Mat 4096 512) (adj : Mat 4096 4096) (w1 : Mat 512 256) (b1 : Row 256) (w2 : Mat 256 64) (b2 : Row 64) : Mat 4096 64 :=
  fun j => outAt x adj w1 b1 w2 b2 (j 0) (j 1)

theorem feature_apply (x : Mat 4096 512) (adj : Mat 4096 4096) (w1 : Mat 512 256) (b1 : Row 256) (r : Fin 4096) (c : Fin 256) :
    feature x adj w1 b1 (ix2 r c) = featAt x adj w1 b1 r c := rfl

theorem output_apply (x : Mat 4096 512) (adj : Mat 4096 4096) (w1 : Mat 512 256) (b1 : Row 256) (w2 : Mat 256 64) (b2 : Row 64)
    (r : Fin 4096) (c : Fin 64) : output x adj w1 b1 w2 b2 (ix2 r c) = outAt x adj w1 b1 w2 b2 r c := rfl

end Cert.GcnSpec

end
-- ==== Proof.HalfSums.lean ====
/-
  A sum over an axis of length 4096 is the sum over its first 2048 entries plus the sum over its last 2048:
  the law that joins a matrix product accumulated in two halves of the shared axis to the whole product.
  It holds in any commutative additive monoid, so on the extended reals it asks nothing of the summands.
-/
import Mathlib.Algebra.BigOperators.Fin

open scoped BigOperators

namespace Cert.HalfSums

/-- A sum over `Fin 4096` splits at 2048 into the sum over the lower and the sum over the upper half. -/
theorem sum_4096 {M : Type*} [AddCommMonoid M] (f : Fin 4096 → M) :
    ∑ u : Fin 4096, f u
      = ∑ u : Fin 2048, f ⟨u.val, by have := u.isLt; omega⟩ + ∑ u : Fin 2048, f ⟨2048 + u.val, by have := u.isLt; omega⟩ :=
  Fin.sum_univ_add (a := 2048) (b := 2048) (f : Fin (2048 + 2048) → M)

end Cert.HalfSums
-- ==== Proof.KernelValue.lean ====
/-
  The kernel's two result arrays, entry by entry on the extended reals: they are the graph convolution of GcnSpec.

  The support the body stores is x·W1 + b1 (the support store read at an entry; the bias row is the bias vector).
  At the point numbered t = 2·i + 1 the feature block's entry (r, c) is the maximum with zero of

      Σ_{u < 2048} adj (1024·i + r, u) · support (u, c)  +  Σ_{u < 2048} adj (1024·i + r, 2048 + u) · support (2048 + u, c),

  the half product carried from the point before plus this point's: by the splitting of a sum over 4096 at 2048 that is
  the sum over all 4096 nodes, the feature of row 1024·i + r. The output block is the logistic function of the
  features' second affine map. The points with j = 1 are the points that write back, their blocks are the four
  blocks of 1024 rows, and these cover the result arrays.
-/
import proofs.«143571_g39943195853166_cont_8to1_b_452_22_alg».proof.Proof.Gen.KernelIdeal.Value
import proofs.«143571_g39943195853166_cont_8to1_b_452_22_alg».proof.Proof.Carried
import proofs.«143571_g39943195853166_cont_8to1_b_452_22_alg».proof.Proof.Payloads
import proofs.«143571_g39943195853166_cont_8to1_b_452_22_alg».proof.Proof.GcnSpec
import proofs.«143571_g39943195853166_cont_8to1_b_452_22_alg».proof.Proof.HalfSums

noncomputable section

open scoped BigOperators

namespace Cert.KernelIdeal.KernelValue

open Cert.KernelIdeal Cert.KernelIdeal.Gen Cert.KernelIdeal.Pieces Cert.KernelIdeal.Blocks Cert.KernelIdeal.Carried
open Cert.KernelIdeal.Payloads Cert.GcnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The six argument arrays at launch, on core `c`. -/
abbrev aX (c : Dev nD) : Mat 4096 512 := m ((c : Thread nD τ).loc main_arg0)
abbrev aAdj (c : Dev nD) : Mat 4096 4096 := m ((c : Thread nD τ).loc main_arg1)
abbrev aW1 (c : Dev nD) : Mat 512 256 := m ((c : Thread nD τ).loc main_arg2)
abbrev aB1 (c : Dev nD) : Row 256 := m ((c : Thread nD τ).loc main_arg3)
abbrev aW2 (c : Dev nD) : Mat 256 64 := m ((c : Thread nD τ).loc main_arg4)
abbrev aB2 (c : Dev nD) : Row 64 := m ((c : Thread nD τ).loc main_arg5)

/-- The lower rows of a [4096, 256] array at (u, c): the array at (u, c). -/
theorem lower_entry (S : Vec Ideal S4096x256 .bf16) (u : Fin 2048) (ch : Fin 256) (K : Fin 4096) (hK : K.val = u.val) :
    lowerRows S (ix2 u ch) = S (ix2 K ch) := by
  show S _ = S _
  refine congrArg S (funext fun a => Fin.ext ?_)
  match a with
  | ⟨0, _⟩ => show 0 + 1 * u.val = K.val; omega
  | ⟨1, _⟩ => show 0 + 1 * ch.val = ch.val; omega

/-- The upper rows of a [4096, 256] array at (u, c): the array at (2048 + u, c). -/
theorem upper_entry (S : Vec Ideal S4096x256 .bf16) (u : Fin 2048) (ch : Fin 256) (K : Fin 4096) (hK : K.val = 2048 + u.val) :
    upperRows S (ix2 u ch) = S (ix2 K ch) := by
  show S _ = S _
  refine congrArg S (funext fun a => Fin.ext ?_)
  match a with
  | ⟨0, _⟩ => show 2048 + 1 * u.val = K.val; omega
  | ⟨1, _⟩ => show 0 + 1 * ch.val = ch.val; omega

/-- The stored support at (k, c) is the first layer's affine map there. -/
theorem support_entry (c : Dev nD) (k : Fin 4096) (ch : Fin 256) :
    support m c (ix2 k ch) = supportAt (aX m c) (aW1 m c) (aB1 m c) k ch := by
  unfold support supportAt
  refine (support_store _ _ _ k ch).trans ?_
  rw [V_main_arg0 m c, V_main_arg2 m c, b1_row m c ch]

/-- The feature block at a point with j = 1, at (r, c): the feature of row 1024·(t / 2) + r. -/
theorem feature_entry (c : Dev nD) (t : Fin cfg0.N) (h2 : t.val % 2 = 1) (r : Fin 1024) (ch : Fin 256) (R : Fin 4096)
    (hR : R.val = 1024 * (t.val / 2) + r.val) :
    (outsAt0 m c t.val t.isLt).1 (ix2 r ch) = featAt (aX m c) (aAdj m c) (aW1 m c) (aB1 m c) R ch := by
  have hN : t.val < 8 := lt_of_lt_of_eq t.isLt (show cfg0.N = 8 from N_0)
  rw [feature_at m c t h2]
  refine (feature_store _ _ _ r ch).trans ?_
  unfold featAt hiddenAt
  refine congrArg₂ (fun a b : EReal => max a b) ?_ rfl
  rw [Cert.HalfSums.sum_4096]
  refine congrArg₂ (fun a b : EReal => a + b) ((half_store _ _ r ch).trans (Finset.sum_congr rfl fun u _ => ?_))
    (Finset.sum_congr rfl fun u _ => ?_)
  · rw [adj_block m c (before t) r u R ⟨u.val, by have := u.isLt; omega⟩ (by show R.val = 1024 * ((t.val - 1) / 2) + r.val; omega)
        (by show u.val = 2048 * ((t.val - 1) % 2) + u.val; omega),
      lower_entry _ u ch ⟨u.val, by have := u.isLt; omega⟩ rfl, support_entry, V_main_arg1 m c]
  · rw [adj_block m c t r u R ⟨2048 + u.val, by have := u.isLt; omega⟩ hR (by show 2048 + u.val = 2048 * (t.val % 2) + u.val; omega),
      upper_entry _ u ch ⟨2048 + u.val, by have := u.isLt; omega⟩ rfl, support_entry, V_main_arg1 m c]

/-- The output block at a point with j = 1, at (r, c): the output of row 1024·(t / 2) + r. -/
theorem output_entry (c : Dev nD) (t : Fin cfg0.N) (h2 : t.val % 2 = 1) (r : Fin 1024) (ch : Fin 64) (R : Fin 4096)
    (hR : R.val = 1024 * (t.val / 2) + r.val) :
    (outsAt0 m c t.val t.isLt).2.1 (ix2 r ch)
      = outAt (aX m c) (aAdj m c) (aW1 m c) (aB1 m c) (aW2 m c) (aB2 m c) R ch := by
  rw [output_at m c t h2]
  refine (output_store _ _ _ _ _ r ch).trans ?_
  unfold outAt logitAt
  refine congrArg Ideal.logistic (congrArg₂ (fun a b : EReal => a + b) (Finset.sum_congr rfl fun u _ => ?_) (b2_row m c ch))
  rw [← feature_at m c t h2, feature_entry m c t h2 r u R hR, V_main_arg4 m c]

/-- The block indices of the two output windows, decided over the eight grid points. -/
theorem out_index : ∀ t : Fin cfg0.N,
    win0_6.index t (0 : Fin 2) = t.val / 2 ∧ win0_6.index t (1 : Fin 2) = 0
    ∧ win0_7.index t (0 : Fin 2) = t.val / 2 ∧ win0_7.index t (1 : Fin 2) = 0 :=
  (by decide +kernel : ∀ t : Fin grid0.N, _)

/-- What a point that writes back writes to the feature array is its block of the feature. -/
theorem flushed_feature (c : Dev nD) (t : Fin cfg0.N) (hf : (cfg0.win 6).flush t = true) :
    (dats m 0 c).flushed 6 t
      = ((cfg0.win 6).blk t).view.read (Elt Ideal) (feature (aX m c) (aAdj m c) (aW1 m c) (aB1 m c)) := by
  have h2 : t.val % 2 = 1 := (flush0_6 t).mp hf
  have hN : t.val < 8 := lt_of_lt_of_eq t.isLt (show cfg0.N = 8 from N_0)
  obtain ⟨e0, e1, -, -⟩ := out_index t
  rw [Cert.KernelIdeal.Value.flushed6]
  funext j
  obtain ⟨r, ch, rfl⟩ : ∃ (r : Fin 1024) (ch : Fin 256), j = ix2 r ch := ⟨j 0, j 1, eq_ix2 j⟩
  show (outsAt0 m c t.val t.isLt).1 (ix2 r ch)
    = feature (aX m c) (aAdj m c) (aW1 m c) (aB1 m c) (((cfg0.win 6).blk t).view.emb (ix2 r ch))
  have hemb : ((cfg0.win 6).blk t).view.emb (ix2 r ch)
      = ix2 (⟨1024 * (t.val / 2) + r.val, by have := r.isLt; omega⟩ : Fin 4096) ch := funext fun a => Fin.ext (by
    match a with
    | ⟨0, _⟩ => show win0_6.index t (0 : Fin 2) * 1024 + 1 * r.val = 1024 * (t.val / 2) + r.val; omega
    | ⟨1, _⟩ => show win0_6.index t (1 : Fin 2) * 256 + 1 * ch.val = ch.val; omega)
  rw [hemb, feature_apply]
  exact feature_entry m c t h2 r ch _ rfl

/-- What a point that writes back writes to the output array is its block of the output. -/
theorem flushed_output (c : Dev nD) (t : Fin cfg0.N) (hf : (cfg0.win 7).flush t = true) :
    (dats m 0 c).flushed 7 t
      = ((cfg0.win 7).blk t).view.read (Elt Ideal) (output (aX m c) (aAdj m c) (aW1 m c) (aB1 m c) (aW2 m c) (aB2 m c)) := by
  have h2 : t.val % 2 = 1 := (flush0_7 t).mp hf
  have hN : t.val < 8 := lt_of_lt_of_eq t.isLt (show cfg0.N = 8 from N_0)
  obtain ⟨-, -, e0, e1⟩ := out_index t
  rw [Cert.KernelIdeal.Value.flushed7]
  funext j
  obtain ⟨r, ch, rfl⟩ : ∃ (r : Fin 1024) (ch : Fin 64), j = ix2 r ch := ⟨j 0, j 1, eq_ix2 j⟩
  show (outsAt0 m c t.val t.isLt).2.1 (ix2 r ch)
    = output (aX m c) (aAdj m c) (aW1 m c) (aB1 m c) (aW2 m c) (aB2 m c) (((cfg0.win 7).blk t).view.emb (ix2 r ch))
  have hemb : ((cfg0.win 7).blk t).view.emb (ix2 r ch)
      = ix2 (⟨1024 * (t.val / 2) + r.val, by have := r.isLt; omega⟩ : Fin 4096) ch := funext fun a => Fin.ext (by
    match a with
    | ⟨0, _⟩ => show win0_7.index t (0 : Fin 2) * 1024 + 1 * r.val = 1024 * (t.val / 2) + r.val; omega
    | ⟨1, _⟩ => show win0_7.index t (1 : Fin 2) * 64 + 1 * ch.val = ch.val; omega)
  rw [hemb, output_apply]
  exact output_entry m c t h2 r ch _ rfl

/-- An index of the feature array is in point t's block iff each coordinate is in the block's range. -/
theorem mem_feature_block (t : Fin cfg0.N) (i : S4096x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v0_0).slice (win0_6.rect t)).set ↔ _
  rw [View.set_slice_whole, Rect.mem_set_unit]
  exact Iff.rfl

/-- An index of the output array is in point t's block iff each coordinate is in the block's range. -/
theorem mem_output_block (t : Fin cfg0.N) (i : S4096x64.Idx) :
    i ∈ ((cfg0.win 7).blk t).view.set ↔ ∀ a : Fin 2, win0_7.index t a * S1024x64.size a ≤ (i a).val
      ∧ (i a).val < win0_7.index t a * S1024x64.size a + S1024x64.size a := by
  show i ∈ ((View.whole main_v0_1).slice (win0_7.rect t)).set ↔ _
  rw [View.set_slice_whole, Rect.mem_set_unit]
  exact Iff.rfl

/-- Row R of the feature array is written back by the point 2·(R / 1024) + 1. -/
theorem feature_covered (i : S4096x256.Idx) :
    ∃ t : Fin cfg0.N, (cfg0.win 6).flush t = true ∧ i ∈ ((cfg0.win 6).blk t).view.set := by
  have h0 : (i 0).val < 4096 := (i 0).isLt
  have h1 : (i 1).val < 256 := (i 1).isLt
  let t : Fin cfg0.N := ⟨2 * ((i 0).val / 1024) + 1, by rw [show cfg0.N = 8 from N_0]; omega⟩
  have ht : t.val = 2 * ((i 0).val / 1024) + 1 := rfl
  obtain ⟨e0, e1, -, -⟩ := out_index t
  refine ⟨t, (flush0_6 t).mpr (by omega), ?_⟩
  rw [mem_feature_block]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 256 ≤ (i 1).val ∧ (i 1).val < win0_6.index t (1 : Fin 2) * 256 + 256; omega

/-- Row R of the output array is written back by the point 2·(R / 1024) + 1. -/
theorem output_covered (i : S4096x64.Idx) :
    ∃ t : Fin cfg0.N, (cfg0.win 7).flush t = true ∧ i ∈ ((cfg0.win 7).blk t).view.set := by
  have h0 : (i 0).val < 4096 := (i 0).isLt
  have h1 : (i 1).val < 64 := (i 1).isLt
  let t : Fin cfg0.N := ⟨2 * ((i 0).val / 1024) + 1, by rw [show cfg0.N = 8 from N_0]; omega⟩
  have ht : t.val = 2 * ((i 0).val / 1024) + 1 := rfl
  obtain ⟨-, -, e0, e1⟩ := out_index t
  refine ⟨t, (flush0_7 t).mpr (by omega), ?_⟩
  rw [mem_output_block]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 64 ≤ (i 1).val ∧ (i 1).val < win0_7.index t (1 : Fin 2) * 64 + 64; omega

/-- The feature array after the run. -/
theorem final_feature (c : Dev nD) :
    (dats m 0 c).arrAt 6 cfg0.N = feature (aX m c) (aAdj m c) (aW1 m c) (aB1 m c) :=
  (dats m 0 c).arrAt_eq_of_cover 6 (feature (aX m c) (aAdj m c) (aW1 m c) (aB1 m c)) (flushed_feature m c) feature_covered

/-- The output array after the run. -/
theorem final_output (c : Dev nD) :
    (dats m 0 c).arrAt 7 cfg0.N = output (aX m c) (aAdj m c) (aW1 m c) (aB1 m c) (aW2 m c) (aB2 m c) :=
  (dats m 0 c).arrAt_eq_of_cover 7 (output (aX m c) (aAdj m c) (aW1 m c) (aB1 m c) (aW2 m c) (aB2 m c))
    (flushed_output m c) output_covered

/-- The kernel's run: it ends with the two result arrays at the graph convolution of the arguments, the arguments
    unchanged. -/
theorem run : θ_run defs (onTc (τ := τ) (main (F := Ideal))) ⟨m, fun _ => 0, ρ⟩ fun r => ∀ c : Dev nD,
      r.2.mem ((c : Thread nD τ).loc main_v0_0) = feature (aX m c) (aAdj m c) (aW1 m c) (aB1 m c)
      ∧ r.2.mem ((c : Thread nD τ).loc main_v0_1) = output (aX m c) (aAdj m c) (aW1 m c) (aB1 m c) (aW2 m c) (aB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_feature m c), (h c).2.1.trans (final_output m c), (h c).2.2⟩)
    (Cert.KernelIdeal.Value.run_blocks m ρ)

end Cert.KernelIdeal.KernelValue

end
-- ==== Proof.RefIsSpec.lean ====
/-
  The reference program's two results are the graph convolution of GcnSpec, entry by entry on the extended reals.

  Each stage is read at an index from its operands: a host matrix product is the sum of products over the shared
  axis, a bias vector laid out as one row and repeated down the rows reads the vector's entry at the column, the
  maximum with the zero array is the maximum with the zero word, and the host's 1 / (1 + exp (−z)) is the logistic
  function of z (the f32 word 0x3F800000 being the number one).
-/
import proofs.«143571_g39943195853166_cont_8to1_b_452_22_alg».proof.Proof.Gen.ReferenceIdeal.Read
import proofs.«143571_g39943195853166_cont_8to1_b_452_22_alg».proof.Proof.GcnSpec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx Cert.GcnSpec

/-- The first layer's stage x·W1 + b1 at (k, c). -/
theorem support_stage (x : Mat 4096 512) (w1 : Mat 512 256) (b1 : Row 256) (k : Fin 4096) (c : Fin 256) :
    val_main_v3 (F := Ideal) x w1 b1 (ix2 k c) = supportAt x w1 b1 k c := by
  rw [val_main_v3_apply, val_main_v0_apply, val_main_v2_apply, val_main_v1_apply]
  unfold supportAt
  show _ + _ = _ + _
  refine congrArg₂ (fun a b : EReal => a + b) (Finset.sum_congr rfl fun u _ => ?_) (congrArg b1 ?_)
  · refine congrArg₂ (fun a b : EReal => a * b) (congrArg x ?_) (congrArg w1 ?_)
    · funext a; match a with
      | ⟨0, _⟩ => rfl
      | ⟨1, _⟩ => rfl
    · funext a; match a with
      | ⟨0, _⟩ => rfl
      | ⟨1, _⟩ => rfl
  · funext a; match a with
    | ⟨0, _⟩ => rfl

/-- The first result: max (adj · support, 0). -/
theorem feature_stage (x : Mat 4096 512) (adj : Mat 4096 4096) (w1 : Mat 512 256) (b1 : Row 256) :
    val_main_v6 (F := Ideal) x adj w1 b1 = feature x adj w1 b1 := by
  funext j
  obtain ⟨r, c, rfl⟩ : ∃ (r : Fin 4096) (c : Fin 256), j = ix2 r c := ⟨j 0, j 1, eq_ix2 j⟩
  rw [feature_apply, val_main_v6_apply, val_main_v4_apply, val_main_v5_apply, val_main_cst_apply]
  unfold featAt hiddenAt
  show max _ _ = max _ _
  refine congrArg₂ (fun a b : EReal => max a b) (Finset.sum_congr rfl fun k _ => ?_) rfl
  have e1 : lidx_main_v4 (ix2 r c) k = ix2 r k := funext fun a => by
    match a with
    | ⟨0, _⟩ => rfl
    | ⟨1, _⟩ => rfl
  have e2 : ridx_main_v4 (ix2 r c) k = ix2 k c := funext fun a => by
    match a with
    | ⟨0, _⟩ => rfl
    | ⟨1, _⟩ => rfl
  rw [e1, e2, support_stage]

/-- The second result: the logistic function of feature · W2 + b2. -/
theorem output_stage (x : Mat 4096 512) (adj : Mat 4096 4096) (w1 : Mat 512 256) (b1 : Row 256) (w2 : Mat 256 64) (b2 : Row 64) :
    val_main_v16 (F := Ideal) x adj w1 b1 w2 b2 = output x adj w1 b1 w2 b2 := by
  funext j
  obtain ⟨r, c, rfl⟩ : ∃ (r : Fin 4096) (c : Fin 64), j = ix2 r c := ⟨j 0, j 1, eq_ix2 j⟩
  rw [output_apply, val_main_v16_apply, val_main_v15_apply, val_main_cst_1_apply, val_main_v14_apply, val_main_v13_apply,
    val_main_cst_0_apply, val_main_v12_apply, val_main_v11_apply, val_main_v10_apply, val_main_v7_apply,
    val_main_v9_apply, val_main_v8_apply]
  unfold outAt logitAt
  rw [show FloatOps.ofBits (F := Ideal) .f32 0x3F800000#32 = (1 : Ideal .f32) from Ideal.ofBits_one_f32]
  show Ideal.logistic (_ + _) = Ideal.logistic (_ + _)
  refine congrArg Ideal.logistic (congrArg₂ (fun a b : EReal => a + b) (Finset.sum_congr rfl fun u _ => ?_) (congrArg b2 ?_))
  · have e1 : lidx_main_v7 (ix2 r c) u = ix2 r u := funext fun a => by
      match a with
      | ⟨0, _⟩ => rfl
      | ⟨1, _⟩ => rfl
    have e2 : ridx_main_v7 (ix2 r c) u = ix2 u c := funext fun a => by
      match a with
      | ⟨0, _⟩ => rfl
      | ⟨1, _⟩ => rfl
    rw [e1, e2, feature_stage, feature_apply]
  · funext a; match a with
    | ⟨0, _⟩ => rfl

end Cert.ReferenceIdeal.RefValue

end
-- ==== Proof.lean ====
/-
  A two-layer graph convolution, fused into one blocked kernel, against its plain reference.

  The reference computes support = x·W1 + b1, hidden = adj·support, feature = max (hidden, 0) and
  output = 1 / (1 + exp (−(feature·W2 + b2))) on whole arrays. The kernel walks a grid of 4 row blocks × 2 halves
  of the shared axis of adj·support: it stores the support once, at the first point, into a scratch it keeps for the
  whole run; at each point with j = 0 it stores the half product adj[block, 0:2048]·support[0:2048] into a second
  scratch; at each point with j = 1 it adds adj[block, 2048:4096]·support[2048:4096], rectifies, and writes the
  feature block and the logistic output block.

  On the extended reals a change of float format is the identity and a product accumulated into zero is the plain sum
  of products, so the two programs differ by one law only: a sum over the 4096 nodes is the sum over the first 2048
  plus the sum over the last 2048. That holds in any commutative additive monoid, so nothing is asked of the inputs
  beyond what the statement gives; the precondition is never opened. The host's 1 / (1 + exp (−z)) and the kernel's
  logistic operation are one function there.

  The three frames are the generated ones (the reference's is its generated run with the results dropped); the
  idealization rewrote nothing, so that conjunct is trivial; the last conjunct sets the kernel's run, read through
  GcnSpec (KernelValue), beside the reference's run, read through GcnSpec (RefIsSpec), on arguments that agree.
-/
import proofs.«143571_g39943195853166_cont_8to1_b_452_22_alg».proof.Defs
import proofs.«143571_g39943195853166_cont_8to1_b_452_22_alg».proof.Proof.Gen.Kernel
import proofs.«143571_g39943195853166_cont_8to1_b_452_22_alg».proof.Proof.Gen.Kernel.Skeleton
import proofs.«143571_g39943195853166_cont_8to1_b_452_22_alg».proof.Proof.Gen.Kernel.Launch
import proofs.«143571_g39943195853166_cont_8to1_b_452_22_alg».proof.Proof.Gen.Kernel.Points
import proofs.«143571_g39943195853166_cont_8to1_b_452_22_alg».proof.Proof.Gen.Kernel.Frame
import proofs.«143571_g39943195853166_cont_8to1_b_452_22_alg».proof.Proof.Gen.KernelIdeal
import proofs.«143571_g39943195853166_cont_8to1_b_452_22_alg».proof.Proof.Gen.KernelIdeal.Skeleton
import proofs.«143571_g39943195853166_cont_8to1_b_452_22_alg».proof.Proof.Gen.KernelIdeal.Launch
import proofs.«143571_g39943195853166_cont_8to1_b_452_22_alg».proof.Proof.Gen.KernelIdeal.Points
import proofs.«143571_g39943195853166_cont_8to1_b_452_22_alg».proof.Proof.Gen.KernelIdeal.Frame
import proofs.«143571_g39943195853166_cont_8to1_b_452_22_alg».proof.Proof.Gen.ReferenceIdeal
import proofs.«143571_g39943195853166_cont_8to1_b_452_22_alg».proof.Proof.Gen.Pre_finite_inputs
import proofs.«143571_g39943195853166_cont_8to1_b_452_22_alg».proof.Proof.Gen.KernelIdeal.Value
import proofs.«143571_g39943195853166_cont_8to1_b_452_22_alg».proof.Proof.Gen.ReferenceIdeal.Run
import proofs.«143571_g39943195853166_cont_8to1_b_452_22_alg».proof.Proof.Gen.ReferenceIdeal.Read
import proofs.«143571_g39943195853166_cont_8to1_b_452_22_alg».proof.Proof.KernelValue
import proofs.«143571_g39943195853166_cont_8to1_b_452_22_alg».proof.Proof.RefIsSpec
import Idealize.ShloMosaic.Adequacy
import Idealize.ShloMosaic.Init

noncomputable section

namespace Cert.Proof

open Idealize.ShloMosaic Idealize.SL.Sem

/-- The kernel as printed runs and leaves its arguments as they were. -/
theorem frame_kernel [Cert.Kernel.Facts] [Cert.Pre_finite_inputs.Facts] : Cert.frame_Kernel :=
  fun m ρ _ => Cert.Kernel.Gen.frame m ρ

/-- So does its reading on the extended reals. -/
theorem frame_kernel_ideal [Cert.KernelIdeal.Facts] [Cert.Pre_finite_inputs.Facts] : Cert.frame_KernelIdeal :=
  fun m ρ _ => Cert.KernelIdeal.Gen.frame m ρ

/-- The reference runs and leaves its arguments as they were: its run, the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- On arguments that agree the two programs end with the same feature array and the same output array: both are
    the graph convolution of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v6_eq, Cert.ReferenceIdeal.RefValue.feature_stage,
      (hagree c).1, (hagree c).2.1, (hagree c).2.2.1, (hagree c).2.2.2.1]
  · rw [Cert.ReferenceIdeal.Read.val_main_v16_eq, Cert.ReferenceIdeal.RefValue.output_stage,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
